-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x128 .f32) (main_arg8 : FVec F S128 .f32) (main_arg9 : FVec F S128x64 .f32) (main_arg10 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x800000 32) (main_arg2 : IVec S800000 32) (main_arg3 : FVec F S512x64 .f32) (main_arg4 : FVec F S64 .f32) (main_arg5 : FVec F S512x64 .f32) (main_arg6 : FVec F S64 .f32) (main_arg7 : FVec F S64x128 .f32) (main_arg8 : FVec F S128 .f32) (main_arg9 : FVec F S128x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x64 .f32 := Host.absf main_arg5
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S400000x64 : Shape := ⟨2, ![400000, 64]⟩
abbrev S8x50000x64 : Shape := ⟨3, ![8, 50000, 64]⟩
abbrev S50000x8x64 : Shape := ⟨3, ![50000, 8, 64]⟩
abbrev S50000x512 : Shape := ⟨2, ![50000, 512]⟩
abbrev S1x64 : Shape := ⟨2, ![1, 64]⟩
abbrev S5000x512 : Shape := ⟨2, ![5000, 512]⟩
abbrev S5000x64 : Shape := ⟨2, ![5000, 64]⟩
abbrev S1x128 : Shape := ⟨2, ![1, 128]⟩
abbrev S5000x128 : Shape := ⟨2, ![5000, 128]⟩

abbrev nBuf : Space → Nat
  | .hbm => 65
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .i32⟩
  | .hbm, ⟨3, _⟩ => ⟨S512x64, .f32⟩
  | .hbm, ⟨4, _⟩ => ⟨S64, .f32⟩
  | .hbm, ⟨5, _⟩ => ⟨S512x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S_, .f32⟩
  | .hbm, ⟨29, _⟩ => ⟨S400000x64, .f32⟩
  | .hbm, ⟨30, _⟩ => ⟨S800000x1, .i32⟩
  | .hbm, ⟨31, _⟩ => ⟨S400000x64, .f32⟩
  | .hbm, ⟨32, _⟩ => ⟨S8x50000x64, .f32⟩
  | .hbm, ⟨33, _⟩ => ⟨S50000x8x64, .f32⟩
  | .hbm, ⟨34, _⟩ => ⟨S50000x512, .f32⟩
  | .hbm, ⟨35, _⟩ => ⟨S1x64, .f32⟩
  | .hbm, ⟨36, _⟩ => ⟨S50000x64, .f32⟩
  | .hbm, ⟨37, _⟩ => ⟨S1x800000, .i32⟩
  | .hbm, ⟨38, _⟩ => ⟨S800000, .i32⟩
  | .hbm, ⟨39, _⟩ => ⟨S1x800000, .i32⟩
  | .hbm, ⟨40, _⟩ => ⟨S800000, .i32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S_, .f32⟩
  | .hbm, ⟨55, _⟩ => ⟨S400000x64, .f32⟩
  | .hbm, ⟨56, _⟩ => ⟨S800000x1, .i32⟩
  | .hbm, ⟨57, _⟩ => ⟨S400000x64, .f32⟩
  | .hbm, ⟨58, _⟩ => ⟨S8x50000x64, .f32⟩
  | .hbm, ⟨59, _⟩ => ⟨S50000x8x64, .f32⟩
  | .hbm, ⟨60, _⟩ => ⟨S50000x512, .f32⟩
  | .hbm, ⟨61, _⟩ => ⟨S1x64, .f32⟩
  | .hbm, ⟨62, _⟩ => ⟨S1x128, .f32⟩
  | .hbm, ⟨63, _⟩ => ⟨S1x64, .f32⟩
  | .hbm, ⟨64, _⟩ => ⟨S50000x64, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x512, .f32⟩
  | .local _ .vmem, ⟨7, _⟩ => ⟨S5000x512, .f32⟩
  | .local _ .vmem, ⟨8, _⟩ => ⟨S5000x64, .f32⟩
  | .local _ .vmem, ⟨9, _⟩ => ⟨S5000x64, .f32⟩
  | .local _ .vmem, ⟨10, _⟩ => ⟨S512x64, .f32⟩
  | .local _ .vmem, ⟨11, _⟩ => ⟨S1x64, .f32⟩
  | .local _ .vmem, ⟨12, _⟩ => ⟨S64x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S400000x64 : S_.BroadcastsInDim S400000x64 (![] : Fin 0 → Fin S400000x64.rank)
  shapeCasts_S400000x64_S8x50000x64 : S400000x64.ShapeCasts S8x50000x64
  transposes_S8x50000x64_S50000x8x64_1_0_2 : S8x50000x64.Transposes [1, 0, 2] S50000x8x64
  shapeCasts_S50000x8x64_S50000x512 : S50000x8x64.ShapeCasts S50000x512
  shapeCasts_S64_S1x64 : S64.ShapeCasts S1x64
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S5000x64_S5000x64 : S5000x64.ShapeCasts S5000x64
  gather_S50000x64_S800000x1_S800000x64_1_0_n_n_0_1_164_wf : GatherDims.WF S50000x64 S800000x1 S800000x64 [1] [0] [] [0] [] 1 ![1, 64]
  scatter_S400000x64_S800000x1_S800000x64_1_0_0_1_wf : ScatterDims.WF S400000x64 S800000x1 S800000x64 [1] [0] [0] 1
  dot_S5000x512_S512x64_S5000x64_1_0_0_1_n_n_wf : DotDims.WF S5000x512 S512x64 S5000x64 [1] [0] [0] [1] [] []
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .f32 = 32 ∨ (Rect.block (s := S50000x512) S5000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S512x64.size a
  hwx1_2 : ∀ i : grid1.Coords, EltTy.bits .f32 = 32 ∨ (Rect.block (s := S512x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S400000x64_S800000x1_S800000x64_1_0_0_1 : ScatterDims S400000x64 S800000x1 S800000x64 where
  updateWindowDims := [1]
  insertedWindowDims := [0]
  scatterDimsToOperandDims := [0]
  indexVectorDim := 1
  wf := scatter_S400000x64_S800000x1_S800000x64_1_0_0_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v19) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v45) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S512x64 : Shape := ⟨2, ![512, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S400000x64 : Shape := ⟨2, ![400000, 64]⟩
abbrev S8x50000x64 : Shape := ⟨3, ![8, 50000, 64]⟩
abbrev S50000x8x64 : Shape := ⟨3, ![50000, 8, 64]⟩
abbrev S50000x512 : Shape := ⟨2, ![50000, 512]⟩
abbrev S1x64 : Shape := ⟨2, ![1, 64]⟩
abbrev S50000x128 : Shape := ⟨2, ![50000, 128]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .i32⟩
  | .hbm, ⟨3, _⟩ => ⟨S512x64, .f32⟩
  | .hbm, ⟨4, _⟩ => ⟨S64, .f32⟩
  | .hbm, ⟨5, _⟩ => ⟨S512x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S_, .f32⟩
  | .hbm, ⟨29, _⟩ => ⟨S400000x64, .f32⟩
  | .hbm, ⟨30, _⟩ => ⟨S800000x1, .i32⟩
  | .hbm, ⟨31, _⟩ => ⟨S400000x64, .f32⟩
  | .hbm, ⟨32, _⟩ => ⟨S8x50000x64, .f32⟩
  | .hbm, ⟨33, _⟩ => ⟨S50000x8x64, .f32⟩
  | .hbm, ⟨34, _⟩ => ⟨S50000x512, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S50000x64, .f32⟩
  | .hbm, ⟨44, _⟩ => ⟨S50000x64, .f32⟩
  | .hbm, ⟨45, _⟩ => ⟨S1x800000, .i32⟩
  | .hbm, ⟨46, _⟩ => ⟨S800000, .i32⟩
  | .hbm, ⟨47, _⟩ => ⟨S1x800000, .i32⟩
  | .hbm, ⟨48, _⟩ => ⟨S800000, .i32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S_, .f32⟩
  | .hbm, ⟨63, _⟩ => ⟨S400000x64, .f32⟩
  | .hbm, ⟨64, _⟩ => ⟨S800000x1, .i32⟩
  | .hbm, ⟨65, _⟩ => ⟨S400000x64, .f32⟩
  | .hbm, ⟨66, _⟩ => ⟨S8x50000x64, .f32⟩
  | .hbm, ⟨67, _⟩ => ⟨S50000x8x64, .f32⟩
  | .hbm, ⟨68, _⟩ => ⟨S50000x512, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S1x800000, .i32⟩
  | .hbm, ⟨88, _⟩ => ⟨S800000, .i32⟩
  | .hbm, ⟨89, _⟩ => ⟨S1x800000, .i32⟩
  | .hbm, ⟨90, _⟩ => ⟨S800000, .i32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x64, .f32⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S_, .f32⟩
  | .hbm, ⟨105, _⟩ => ⟨S400000x64, .f32⟩
  | .hbm, ⟨106, _⟩ => ⟨S800000x1, .i32⟩
  | .hbm, ⟨107, _⟩ => ⟨S400000x64, .f32⟩
  | .hbm, ⟨108, _⟩ => ⟨S8x50000x64, .f32⟩
  | .hbm, ⟨109, _⟩ => ⟨S50000x8x64, .f32⟩
  | .hbm, ⟨110, _⟩ => ⟨S50000x512, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S_, .f32⟩
  | .hbm, ⟨116, _⟩ => ⟨S50000x64, .f32⟩
  | .hbm, ⟨117, _⟩ => ⟨S50000x64, .f32⟩
  | .hbm, ⟨118, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_2 : Ref sig .tc := ⟨.hbm, 49, rfl⟩
abbrev main_v30 : Ref sig .tc := ⟨.hbm, 50, rfl⟩
abbrev main_v31 : Ref sig .tc := ⟨.hbm, 51, rfl⟩
abbrev main_c_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call2_cst : Ref sig .tc := ⟨.hbm, 73, rfl⟩
abbrev main_call2_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call3_cst : Ref sig .tc := ⟨.hbm, 80, rfl⟩
abbrev main_call3_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_6 : Ref sig .tc := ⟨.hbm, 91, rfl⟩
abbrev main_v64 : Ref sig .tc := ⟨.hbm, 92, rfl⟩
abbrev main_v65 : Ref sig .tc := ⟨.hbm, 93, rfl⟩
abbrev main_c_7 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_8 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_9 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call4_cst : Ref sig .tc := ⟨.hbm, 115, rfl⟩
abbrev main_call4_v0 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S400000x64 : S_.BroadcastsInDim S400000x64 (![] : Fin 0 → Fin S400000x64.rank)
  shapeCasts_S400000x64_S8x50000x64 : S400000x64.ShapeCasts S8x50000x64
  transposes_S8x50000x64_S50000x8x64_1_0_2 : S8x50000x64.Transposes [1, 0, 2] S50000x8x64
  shapeCasts_S50000x8x64_S50000x512 : S50000x8x64.ShapeCasts S50000x512
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x64_S800000x1_S800000x64_1_0_n_n_0_1_164_wf : GatherDims.WF S50000x64 S800000x1 S800000x64 [1] [0] [] [0] [] 1 ![1, 64]
  scatter_S400000x64_S800000x1_S800000x64_1_0_0_1_wf : ScatterDims.WF S400000x64 S800000x1 S800000x64 [1] [0] [0] 1
  dot_S50000x512_S512x64_S50000x64_1_0_0_1_n_n_wf : DotDims.WF S50000x512 S512x64 S50000x64 [1] [0] [0] [1] [] []
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S400000x64_S800000x1_S800000x64_1_0_0_1 : ScatterDims S400000x64 S800000x1 S800000x64 where
  updateWindowDims := [1]
  insertedWindowDims := [0]
  scatterDimsToOperandDims := [0]
  indexVectorDim := 1
  wf := scatter_S400000x64_S800000x1_S800000x64_1_0_0_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.Layers.lean ====
/-
  The dense layers of the network, one node (one row of features) at a time.

  Every layer of both programs is an affine map of a row: entry `q` of `x · W + b` is `∑ k, x k * W (k, q) + b q`.
  The first temporal layer follows it by a maximum with zero; the perturbation is three such layers in a chain, the
  first two followed by the maximum with zero. Because each output row depends on the same row of the input only, a
  block of rows of the result is the result of the block of rows: this is what lets a row-tiled computation be
  compared with one over the whole array.

  This module states an affine layer at an entry in the two spellings the programs use — a product into a zero
  accumulator plus a one-row bias broadcast over the rows, and a host product plus a bias vector broadcast in two
  steps — and shows both are `dense`.
-/
import Idealize.ShloMosaic.Lib.ValueIdx
import Idealize.ShloMosaic.Lib.ValueLayout
import Idealize.ShloMosaic.Lib.Pipeline.Value
import Idealize.ShloMosaic.PureOps.Ideal.Laws
import proofs.«117241_j78606491451780_1_alg».proof.Proof.LibPlainDot

noncomputable section
open scoped BigOperators
namespace Cert.TemporalGnn
open Idealize.ShloMosaic Idealize.ShloMosaic.ValueIdx

/-- Entry `q` of `x · W + b` for one row `x`. -/
def dense {K B : Nat} (W : (⟨2, ![K, B]⟩ : Shape).Idx → EReal) (b : Fin B → EReal) (x : Fin K → EReal) (q : Fin B) : EReal :=
  (∑ k : Fin K, x k * W (ix2 k q)) + b q

/-- Row `p` of a two-axis array. -/
def row {A K : Nat} (X : (⟨2, ![A, K]⟩ : Shape).Idx → EReal) (p : Fin A) : Fin K → EReal := fun k => X (ix2 p k)

/-- A bias kept as the one row of a `[1, B]` array. -/
def biasRow {B : Nat} (b : (⟨2, ![1, B]⟩ : Shape).Idx → EReal) : Fin B → EReal := fun q => b (ix2 (0 : Fin 1) q)

/-- A bias kept as a `[B]` vector. -/
def biasVec {B : Nat} (b : (⟨1, ![B]⟩ : Shape).Idx → EReal) : Fin B → EReal := fun q => b (ix1 q)

/-- The first temporal layer on `A` rows: `max (cat · W + b) 0`, entry by entry. -/
def hiddenOf {A : Nat} (W : (⟨2, ![512, 64]⟩ : Shape).Idx → EReal) (b : Fin 64 → EReal)
    (cat : (⟨2, ![A, 512]⟩ : Shape).Idx → EReal) : (⟨2, ![A, 64]⟩ : Shape).Idx → EReal :=
  fun i => max (dense W b (row cat (i 0)) (i 1)) 0

/-- The perturbation of one row: `max (max (x · W2 + b2) 0 · Wa1 + ba1) 0 · Wa2 + ba2`. -/
def perturbRow (W2 : (⟨2, ![512, 64]⟩ : Shape).Idx → EReal) (b2 : Fin 64 → EReal)
    (Wa1 : (⟨2, ![64, 128]⟩ : Shape).Idx → EReal) (ba1 : Fin 128 → EReal)
    (Wa2 : (⟨2, ![128, 64]⟩ : Shape).Idx → EReal) (ba2 : Fin 64 → EReal) (x : Fin 512 → EReal) : Fin 64 → EReal :=
  dense Wa2 ba2 fun k => max (dense Wa1 ba1 (fun j => max (dense W2 b2 x j) 0) k) 0

/-- The network's output on `A` rows: the first layer's result plus the perturbation computed from the second
    aggregate. -/
def outputOf {A : Nat} (W2 : (⟨2, ![512, 64]⟩ : Shape).Idx → EReal) (b2 : Fin 64 → EReal)
    (Wa1 : (⟨2, ![64, 128]⟩ : Shape).Idx → EReal) (ba1 : Fin 128 → EReal)
    (Wa2 : (⟨2, ![128, 64]⟩ : Shape).Idx → EReal) (ba2 : Fin 64 → EReal)
    (cat2 : (⟨2, ![A, 512]⟩ : Shape).Idx → EReal) (h1 : (⟨2, ![A, 64]⟩ : Shape).Idx → EReal) :
    (⟨2, ![A, 64]⟩ : Shape).Idx → EReal :=
  fun i => h1 i + perturbRow W2 b2 Wa1 ba1 Wa2 ba2 (row cat2 (i 0)) (i 1)

/-- The maximum with zero taken twice is the maximum with zero. -/
theorem max_zero_idem (z : EReal) : max (max z 0) 0 = max z 0 := by
  rw [max_assoc, max_self]

/-- The kernel's spelling of an affine layer at entry `(p, q)`: the operands rounded to a narrower format (the
    identity on extended reals), multiplied into a zero accumulator, plus the one-row bias broadcast over the rows. -/
theorem kernel_affine_apply {A K B : Nat} (d : PlainDot.Dot2 A K B) (hd : PlainDot.IsPlain d)
    (x : FVec Ideal (⟨2, ![A, K]⟩ : Shape) .f32) (w : FVec Ideal (⟨2, ![K, B]⟩ : Shape) .f32)
    (b : FVec Ideal (⟨2, ![1, B]⟩ : Shape) .f32) (hlt : FTy.bf16.bits < FTy.f32.bits)
    (hs : (⟨2, ![1, B]⟩ : Shape).ShapeCasts ⟨2, ![1, B]⟩) (hb : (⟨2, ![1, B]⟩ : Shape).Broadcasts ⟨2, ![A, B]⟩)
    (p : Fin A) (q : Fin B) :
    addf (matmul d none (truncf .bf16 x hlt) (truncf .bf16 w hlt) (constant (⟨2, ![A, B]⟩ : Shape) .f32 0x00000000#32))
        (broadcastTo (⟨2, ![A, B]⟩ : Shape) (shapeCast (⟨2, ![1, B]⟩ : Shape) b hs) hb) (ix2 p q)
      = dense w (biasRow b) (row x p) q := by
  rw [addf_apply]
  simp only [matmul]
  rw [PlainDot.matmul_zero_plain d hd, shapeCast_self, broadcastTo_1b_ab_apply]
  rfl

/-- The host's spelling of an affine layer at entry `(p, q)`: the host product plus the bias vector broadcast first
    to one row and then over the rows. -/
theorem host_affine_apply {A K B : Nat} (d : PlainDot.Dot2 A K B) (hd : PlainDot.IsPlain d)
    (x : FVec Ideal (⟨2, ![A, K]⟩ : Shape) .f32) (w : FVec Ideal (⟨2, ![K, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![A, B]⟩ ![0, 1])
    (p : Fin A) (q : Fin B) :
    addf (Host.dotGeneral (F := Ideal) d none x w)
        (broadcastInDim (⟨2, ![A, B]⟩ : Shape) ![0, 1] h2 (broadcastInDim (⟨2, ![1, B]⟩ : Shape) ![1] h1 b)) (ix2 p q)
      = dense w (biasVec b) (row x p) q := by
  rw [addf_apply]
  simp only [Host.dotGeneral]
  rw [PlainDot.dotGeneral_plain d hd]
  rw [broadcastInDim_apply ![0, 1] h2 _ (ix2 p q) (ix2 (0 : Fin 1) q) (fun a => by
        match a with
        | ⟨0, _⟩ => rfl
        | ⟨1, _⟩ =>
          show q.val = if B = 1 then 0 else q.val
          split
          · have := q.isLt; omega
          · rfl),
    broadcastInDim_apply ![1] h1 _ (ix2 (0 : Fin 1) q) (ix1 q) (fun a => by
        match a with
        | ⟨0, _⟩ =>
          show q.val = if B = 1 then 0 else q.val
          split
          · have := q.isLt; omega
          · rfl)]
  rfl

end Cert.TemporalGnn

end
-- ==== Proof.KernelPayload.lean ====
/-
  What the two kernel bodies store, entry by entry.

  The first body multiplies its block of aggregated rows by the first temporal weights into a zero accumulator, adds
  the bias row and takes the maximum with zero: its stored block is `hiddenOf` of the block. The second body does the
  same with the second temporal weights, feeds the result through the two perturbation layers, and adds the block of
  the first layer's result it was handed: its stored block is `outputOf` of its blocks. Rounding an operand to a
  narrower format is the identity on extended reals, and a cast of a shape to itself is the identity.
-/
import proofs.«117241_j78606491451780_1_alg».proof.Proof.Gen.KernelIdeal.Skeleton
import proofs.«117241_j78606491451780_1_alg».proof.Proof.Layers

noncomputable section
open scoped BigOperators
namespace Cert.KernelIdeal.Blocks
open Cert.KernelIdeal Cert.KernelIdeal.Gen Cert.TemporalGnn Idealize.ShloMosaic Idealize.ShloMosaic.ValueIdx

/-- The three products of the bodies contract the left operand's columns with the right operand's rows. -/
theorem plain_512_64 : PlainDot.IsPlain dot_S5000x512_S512x64_S5000x64_1_0_0_1_n_n := ⟨rfl, rfl, rfl, rfl, rfl, rfl⟩
theorem plain_64_128 : PlainDot.IsPlain dot_S5000x64_S64x128_S5000x128_1_0_0_1_n_n := ⟨rfl, rfl, rfl, rfl, rfl, rfl⟩
theorem plain_128_64 : PlainDot.IsPlain dot_S5000x128_S128x64_S5000x64_1_0_0_1_n_n := ⟨rfl, rfl, rfl, rfl, rfl, rfl⟩

/-- The zero the bodies compare with is the real zero. -/
theorem zero_word : (Scalar.ofBits (F := Ideal) .f32 0x00000000#32 : Ideal .f32) = (0 : EReal) := Ideal.ofBits_zero_f32

/-- The first body's stored block is the first temporal layer of its block of rows. -/
theorem pay0_eq (v0 : Vec Ideal S5000x512 .f32) (v3 : Vec Ideal S512x64 .f32) (v6 : Vec Ideal S1x64 .f32) :
    k0_pay1 (F := Ideal) v0 v3 v6 = hiddenOf (A := 5000) v3 (biasRow v6) v0 := by
  funext i
  obtain ⟨p, q, rfl⟩ : ∃ (p : Fin 5000) (q : Fin 64), i = ix2 p q := ⟨i 0, i 1, eq_ix2 i⟩
  unfold k0_pay1
  rw [maximumf_apply, shapeCast_self, kernel_affine_apply _ plain_512_64, broadcast_apply, zero_word]
  rfl

/-- A row of the kernel's affine layer is the affine map of the row. -/
theorem kernel_affine_row {A K B : Nat} (d : PlainDot.Dot2 A K B) (hd : PlainDot.IsPlain d)
    (x : FVec Ideal (⟨2, ![A, K]⟩ : Shape) .f32) (w : FVec Ideal (⟨2, ![K, B]⟩ : Shape) .f32)
    (b : FVec Ideal (⟨2, ![1, B]⟩ : Shape) .f32) (hlt : FTy.bf16.bits < FTy.f32.bits)
    (hs : (⟨2, ![1, B]⟩ : Shape).ShapeCasts ⟨2, ![1, B]⟩) (hb : (⟨2, ![1, B]⟩ : Shape).Broadcasts ⟨2, ![A, B]⟩)
    (p : Fin A) :
    row (addf (matmul d none (truncf .bf16 x hlt) (truncf .bf16 w hlt) (constant (⟨2, ![A, B]⟩ : Shape) .f32 0x00000000#32))
        (broadcastTo (⟨2, ![A, B]⟩ : Shape) (shapeCast (⟨2, ![1, B]⟩ : Shape) b hs) hb)) p
      = dense w (biasRow b) (row x p) :=
  funext fun q => kernel_affine_apply d hd x w b hlt hs hb p q

/-- A row of the kernel's affine layer followed by the maximum with zero. -/
theorem kernel_relu_row {A K B : Nat} (d : PlainDot.Dot2 A K B) (hd : PlainDot.IsPlain d)
    (x : FVec Ideal (⟨2, ![A, K]⟩ : Shape) .f32) (w : FVec Ideal (⟨2, ![K, B]⟩ : Shape) .f32)
    (b : FVec Ideal (⟨2, ![1, B]⟩ : Shape) .f32) (hlt : FTy.bf16.bits < FTy.f32.bits)
    (hs : (⟨2, ![1, B]⟩ : Shape).ShapeCasts ⟨2, ![1, B]⟩) (hb : (⟨2, ![1, B]⟩ : Shape).Broadcasts ⟨2, ![A, B]⟩)
    (p : Fin A) :
    row (maximumf (addf (matmul d none (truncf .bf16 x hlt) (truncf .bf16 w hlt) (constant (⟨2, ![A, B]⟩ : Shape) .f32 0x00000000#32))
        (broadcastTo (⟨2, ![A, B]⟩ : Shape) (shapeCast (⟨2, ![1, B]⟩ : Shape) b hs) hb))
        (broadcast (⟨2, ![A, B]⟩ : Shape) (Scalar.ofBits (F := Ideal) .f32 0x00000000#32))) p
      = fun q => max (dense w (biasRow b) (row x p) q) 0 := by
  funext q
  show max (addf _ _ (ix2 p q)) (Scalar.ofBits (F := Ideal) .f32 0x00000000#32) = _
  rw [kernel_affine_apply d hd, zero_word]

/-- The second body's stored block: the block of the first layer's result it was handed plus the perturbation of
    its block of aggregated rows. -/
theorem pay1_eq (v0 : Vec Ideal S5000x512 .f32) (v3 : Vec Ideal S512x64 .f32) (v6 : Vec Ideal S1x64 .f32)
    (v13 : Vec Ideal S64x128 .f32) (v16 : Vec Ideal S1x128 .f32) (v23 : Vec Ideal S128x64 .f32) (v26 : Vec Ideal S1x64 .f32)
    (v30 : Vec Ideal S5000x64 .f32) :
    k1_pay1 (F := Ideal) v0 v3 v6 v13 v16 v23 v26 v30
      = outputOf (A := 5000) v3 (biasRow v6) v13 (biasRow v16) v23 (biasRow v26) v0 v30 := by
  funext i
  obtain ⟨p, q, rfl⟩ : ∃ (p : Fin 5000) (q : Fin 64), i = ix2 p q := ⟨i 0, i 1, eq_ix2 i⟩
  unfold k1_pay1
  rw [addf_apply, kernel_affine_apply _ plain_128_64, kernel_relu_row _ plain_64_128, kernel_relu_row _ plain_512_64]
  simp only [shapeCast_self]
  rfl

end Cert.KernelIdeal.Blocks

end
-- ==== Proof.KernelBlocks.lean ====
/-
  From the blocks the two kernels store to the whole arrays.

  Each launch walks ten grid points; at point `t` it reads rows `5000 t … 5000 t + 4999` of its row-blocked operands
  and the whole of every weight and bias, and writes back rows `5000 t … 5000 t + 4999` of its result. Both networks'
  layers are row-local: entry `(p, q)` of `hiddenOf` or `outputOf` reads row `p` of the row-blocked operands only. So
  the block a point writes back is that block of the layer applied to the whole arrays, and since the ten blocks
  cover all 50000 rows, the result array ends holding the layer of the whole arrays.
-/
import proofs.«117241_j78606491451780_1_alg».proof.Proof.Gen.KernelIdeal.Frame
import proofs.«117241_j78606491451780_1_alg».proof.Proof.KernelPayload

noncomputable section
open scoped BigOperators
namespace Cert.KernelIdeal.Blocks
open Cert.KernelIdeal Cert.KernelIdeal.Gen Cert.TemporalGnn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle. -/
theorem zero_offsets : (![0, 0] : Fin 2 → Nat) = fun _ => 0 := funext fun a => by fin_cases a <;> rfl

/-! ## The layers are row-local -/

/-- Entry `(p, q)` of the first temporal layer reads row `p` of the aggregated rows only: it is the same entry of
    the layer on any other array that has that row at `r`. -/
theorem hiddenOf_block (W W' : S512x64.Idx → EReal) (b b' : S1x64.Idx → EReal)
    (cat : S5000x512.Idx → EReal) (cat' : S50000x512.Idx → EReal) (p : Fin 5000) (r : Fin 50000) (q : Fin 64)
    (eW : W = W') (eb : b = b') (ecat : row cat p = row cat' r) :
    hiddenOf (A := 5000) W (biasRow b) cat (ix2 p q) = hiddenOf (A := 50000) W' (biasRow b') cat' (ix2 r q) := by
  subst eW eb
  show max (dense W (biasRow b) (row cat p) q) 0 = max (dense W (biasRow b) (row cat' r) q) 0
  rw [ecat]

/-- Entry `(p, q)` of the network's output reads row `p` of the second aggregate and entry `(p, q)` of the first
    layer's result only. -/
theorem outputOf_block (W2 W2' : S512x64.Idx → EReal) (b2 b2' : S1x64.Idx → EReal)
    (Wa1 Wa1' : S64x128.Idx → EReal) (ba1 ba1' : S1x128.Idx → EReal)
    (Wa2 Wa2' : S128x64.Idx → EReal) (ba2 ba2' : S1x64.Idx → EReal)
    (cat : S5000x512.Idx → EReal) (cat' : S50000x512.Idx → EReal)
    (h : S5000x64.Idx → EReal) (h' : S50000x64.Idx → EReal) (p : Fin 5000) (r : Fin 50000) (q : Fin 64)
    (eW2 : W2 = W2') (eb2 : b2 = b2') (eWa1 : Wa1 = Wa1') (eba1 : ba1 = ba1') (eWa2 : Wa2 = Wa2') (eba2 : ba2 = ba2')
    (ecat : row cat p = row cat' r) (eh : h (ix2 p q) = h' (ix2 r q)) :
    outputOf (A := 5000) W2 (biasRow b2) Wa1 (biasRow ba1) Wa2 (biasRow ba2) cat h (ix2 p q)
      = outputOf (A := 50000) W2' (biasRow b2') Wa1' (biasRow ba1') Wa2' (biasRow ba2') cat' h' (ix2 r q) := by
  subst eW2 eb2 eWa1 eba1 eWa2 eba2
  show h (ix2 p q) + perturbRow W2 (biasRow b2) Wa1 (biasRow ba1) Wa2 (biasRow ba2) (row cat p) q
    = h' (ix2 r q) + perturbRow W2 (biasRow b2) Wa1 (biasRow ba1) Wa2 (biasRow ba2) (row cat' r) q
  rw [ecat, eh]

/-! ## The first launch: the first temporal layer -/

/-- The index maps of the first launch over its grid: the aggregated rows and the result move with the point along
    the rows; the weights and the bias row stay at block `(0, 0)`. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the first temporal layer of the whole aggregated rows. -/
theorem flushed0_eq (c : Dev nD) (t : Fin cfg0.N) :
    (dat0 V c).flushed 3 t = ((cfg0.win 3).blk t).view.read (Elt Ideal)
      (hiddenOf (A := 50000) (V c main_arg3) (biasRow (V c main_v20)) (V c main_v19)) := by
  show (cfg0.win 3).cut (grid0.coords t) ((dat0 V c).after 3 t) = _
  rw [after0_3]
  unfold out0_3
  rw [View.canon_unit_zero zero_offsets]
  simp only [View.ld_unit_zero (S := S5000x512) zero_offsets, View.ld_unit_zero (S := S512x64) zero_offsets,
    View.ld_unit_zero (S := S1x64) zero_offsets]
  rw [pay0_eq]
  obtain ⟨e00, e01, e10, e11, e20, e21, e30, e31⟩ := index_facts0 t
  have ht : t.val < 10 := lt_of_lt_of_eq t.isLt N_0
  refine funext fun (j : S5000x64.Idx) => ?_
  obtain ⟨p, q, rfl⟩ : ∃ (p : Fin 5000) (q : Fin 64), j = ix2 p q := ⟨j 0, j 1, eq_ix2 j⟩
  have hr : t.val * 5000 + p.val < 50000 := by have := p.isLt; omega
  show hiddenOf (A := 5000) (iblk0 V c 1 t) (biasRow (iblk0 V c 2 t)) (iblk0 V c 0 t) (ix2 p q)
    = hiddenOf (A := 50000) (V c main_arg3) (biasRow (V c main_v20)) (V c main_v19) (((cfg0.win 3).blk t).view.emb (ix2 p q))
  have hemb : ((cfg0.win 3).blk t).view.emb (ix2 p q) = ix2 (⟨t.val * 5000 + p.val, hr⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  rw [hemb]
  refine hiddenOf_block _ _ _ _ _ _ p _ q ?_ ?_ ?_
  · -- the weights' one block is the whole array
    funext y
    show V c main_arg3 (((cfg0.win 1).blk t).view.emb y) = V c main_arg3 y
    have hy : ((cfg0.win 1).blk t).view.emb y = y := by
      funext a; apply Fin.ext
      match a with
      | ⟨0, _⟩ => show win0_1.index t (0 : Fin 2) * 512 + 1 * (y 0).val = (y 0).val; omega
      | ⟨1, _⟩ => show win0_1.index t (1 : Fin 2) * 64 + 1 * (y 1).val = (y 1).val; omega
    rw [hy]
  · -- the bias row's one block is the whole row
    funext y
    show V c main_v20 (((cfg0.win 2).blk t).view.emb y) = V c main_v20 y
    have hy : ((cfg0.win 2).blk t).view.emb y = y := by
      funext a; apply Fin.ext
      match a with
      | ⟨0, _⟩ => show win0_2.index t (0 : Fin 2) * 1 + 1 * (y 0).val = (y 0).val; omega
      | ⟨1, _⟩ => show win0_2.index t (1 : Fin 2) * 64 + 1 * (y 1).val = (y 1).val; omega
    rw [hy]
  · -- row `p` of the point's block of aggregated rows is row `5000 t + p` of the array
    funext k
    show V c main_v19 (((cfg0.win 0).blk t).view.emb (ix2 p k)) = V c main_v19 (ix2 (⟨t.val * 5000 + p.val, hr⟩ : Fin 50000) k)
    have hk : ((cfg0.win 0).blk t).view.emb (ix2 p k) = ix2 (⟨t.val * 5000 + p.val, hr⟩ : Fin 50000) k := by
      funext a; apply Fin.ext
      match a with
      | ⟨0, _⟩ => show win0_0.index t (0 : Fin 2) * 5000 + 1 * p.val = t.val * 5000 + p.val; omega
      | ⟨1, _⟩ => show win0_0.index t (1 : Fin 2) * 512 + 1 * k.val = k.val; omega
    rw [hk]

/-- An index of the result array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v21).slice (win0_3.rect t)).set ↔ _
  rw [View.set_slice_whole, Rect.mem_set_unit]
  exact Iff.rfl

/-- Every row of the result is in the block of the point `row / 5000`, and every point writes its block back. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, e30, e31⟩ := index_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- After the first launch the result array is the first temporal layer of the whole aggregated rows. -/
theorem final0 (c : Dev nD) :
    (dat0 V c).arrAt 3 cfg0.N
      = hiddenOf (A := 50000) (V c main_arg3) (biasRow (V c main_v20)) (V c main_v19) :=
  (dat0 V c).arrAt_eq_of_cover 3 _ (fun t _ => flushed0_eq V c t) cover0

/-! ## The second launch: the perturbation added to the first layer's result -/

/-- The index maps of the second launch over its grid: the second aggregate, the first layer's result and the output
    move with the point along the rows; every weight and bias row stays at block `(0, 0)`. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- What point `t` writes back is block `t` of the network's output on the whole arrays. -/
theorem flushed1_eq (c : Dev nD) (t : Fin cfg1.N) :
    (dat1 V c).flushed 8 t = ((cfg1.win 8).blk t).view.read (Elt Ideal)
      (outputOf (A := 50000) (V c main_arg5) (biasRow (V c main_v42)) (V c main_arg7) (biasRow (V c main_v43))
        (V c main_arg9) (biasRow (V c main_v44)) (V c main_v41) (V c main_v21)) := by
  show (cfg1.win 8).cut (grid1.coords t) ((dat1 V c).after 8 t) = _
  rw [after1_8]
  unfold out1_8
  rw [View.canon_unit_zero zero_offsets]
  simp only [View.ld_unit_zero (S := S5000x512) zero_offsets, View.ld_unit_zero (S := S512x64) zero_offsets,
    View.ld_unit_zero (S := S1x64) zero_offsets, View.ld_unit_zero (S := S64x128) zero_offsets,
    View.ld_unit_zero (S := S1x128) zero_offsets, View.ld_unit_zero (S := S128x64) zero_offsets,
    View.ld_unit_zero (S := S5000x64) zero_offsets]
  rw [pay1_eq]
  obtain ⟨e00, e01, e10, e11, e20, e21, e30, e31, e40, e41, e50, e51, e60, e61, e70, e71, e80, e81⟩ := index_facts1 t
  have ht : t.val < 10 := lt_of_lt_of_eq t.isLt N_1
  refine funext fun (j : S5000x64.Idx) => ?_
  obtain ⟨p, q, rfl⟩ : ∃ (p : Fin 5000) (q : Fin 64), j = ix2 p q := ⟨j 0, j 1, eq_ix2 j⟩
  have hr : t.val * 5000 + p.val < 50000 := by have := p.isLt; omega
  show outputOf (A := 5000) (iblk1 V c 2 t) (biasRow (iblk1 V c 3 t)) (iblk1 V c 4 t) (biasRow (iblk1 V c 5 t))
      (iblk1 V c 6 t) (biasRow (iblk1 V c 7 t)) (iblk1 V c 0 t) (iblk1 V c 1 t) (ix2 p q)
    = outputOf (A := 50000) (V c main_arg5) (biasRow (V c main_v42)) (V c main_arg7) (biasRow (V c main_v43))
      (V c main_arg9) (biasRow (V c main_v44)) (V c main_v41) (V c main_v21) (((cfg1.win 8).blk t).view.emb (ix2 p q))
  have hemb : ((cfg1.win 8).blk t).view.emb (ix2 p q) = ix2 (⟨t.val * 5000 + p.val, hr⟩ : Fin 50000) q := by
    funext a; apply Fin.ext
    match a with
    | ⟨0, _⟩ => show win1_8.index t (0 : Fin 2) * 5000 + 1 * p.val = t.val * 5000 + p.val; omega
    | ⟨1, _⟩ => show win1_8.index t (1 : Fin 2) * 64 + 1 * q.val = q.val; omega
  rw [hemb]
  refine outputOf_block _ _ _ _ _ _ _ _ _ _ _ _ _ _ _ _ p _ q ?_ ?_ ?_ ?_ ?_ ?_ ?_ ?_
  · -- each weight's and each bias row's one block is the whole array
    funext y
    show V c main_arg5 (((cfg1.win 2).blk t).view.emb y) = V c main_arg5 y
    have hy : ((cfg1.win 2).blk t).view.emb y = y := by
      funext a; apply Fin.ext
      match a with
      | ⟨0, _⟩ => show win1_2.index t (0 : Fin 2) * 512 + 1 * (y 0).val = (y 0).val; omega
      | ⟨1, _⟩ => show win1_2.index t (1 : Fin 2) * 64 + 1 * (y 1).val = (y 1).val; omega
    rw [hy]
  ·
    funext y
    show V c main_v42 (((cfg1.win 3).blk t).view.emb y) = V c main_v42 y
    have hy : ((cfg1.win 3).blk t).view.emb y = y := by
      funext a; apply Fin.ext
      match a with
      | ⟨0, _⟩ => show win1_3.index t (0 : Fin 2) * 1 + 1 * (y 0).val = (y 0).val; omega
      | ⟨1, _⟩ => show win1_3.index t (1 : Fin 2) * 64 + 1 * (y 1).val = (y 1).val; omega
    rw [hy]
  ·
    funext y
    show V c main_arg7 (((cfg1.win 4).blk t).view.emb y) = V c main_arg7 y
    have hy : ((cfg1.win 4).blk t).view.emb y = y := by
      funext a; apply Fin.ext
      match a with
      | ⟨0, _⟩ => show win1_4.index t (0 : Fin 2) * 64 + 1 * (y 0).val = (y 0).val; omega
      | ⟨1, _⟩ => show win1_4.index t (1 : Fin 2) * 128 + 1 * (y 1).val = (y 1).val; omega
    rw [hy]
  ·
    funext y
    show V c main_v43 (((cfg1.win 5).blk t).view.emb y) = V c main_v43 y
    have hy : ((cfg1.win 5).blk t).view.emb y = y := by
      funext a; apply Fin.ext
      match a with
      | ⟨0, _⟩ => show win1_5.index t (0 : Fin 2) * 1 + 1 * (y 0).val = (y 0).val; omega
      | ⟨1, _⟩ => show win1_5.index t (1 : Fin 2) * 128 + 1 * (y 1).val = (y 1).val; omega
    rw [hy]
  ·
    funext y
    show V c main_arg9 (((cfg1.win 6).blk t).view.emb y) = V c main_arg9 y
    have hy : ((cfg1.win 6).blk t).view.emb y = y := by
      funext a; apply Fin.ext
      match a with
      | ⟨0, _⟩ => show win1_6.index t (0 : Fin 2) * 128 + 1 * (y 0).val = (y 0).val; omega
      | ⟨1, _⟩ => show win1_6.index t (1 : Fin 2) * 64 + 1 * (y 1).val = (y 1).val; omega
    rw [hy]
  ·
    funext y
    show V c main_v44 (((cfg1.win 7).blk t).view.emb y) = V c main_v44 y
    have hy : ((cfg1.win 7).blk t).view.emb y = y := by
      funext a; apply Fin.ext
      match a with
      | ⟨0, _⟩ => show win1_7.index t (0 : Fin 2) * 1 + 1 * (y 0).val = (y 0).val; omega
      | ⟨1, _⟩ => show win1_7.index t (1 : Fin 2) * 64 + 1 * (y 1).val = (y 1).val; omega
    rw [hy]
  · -- row `p` of the point's block of the second aggregate is row `5000 t + p` of the array
    funext k
    show V c main_v41 (((cfg1.win 0).blk t).view.emb (ix2 p k)) = V c main_v41 (ix2 (⟨t.val * 5000 + p.val, hr⟩ : Fin 50000) k)
    have hk : ((cfg1.win 0).blk t).view.emb (ix2 p k) = ix2 (⟨t.val * 5000 + p.val, hr⟩ : Fin 50000) k := by
      funext a; apply Fin.ext
      match a with
      | ⟨0, _⟩ => show win1_0.index t (0 : Fin 2) * 5000 + 1 * p.val = t.val * 5000 + p.val; omega
      | ⟨1, _⟩ => show win1_0.index t (1 : Fin 2) * 512 + 1 * k.val = k.val; omega
    rw [hk]
  · -- and entry `(p, q)` of its block of the first layer's result is entry `(5000 t + p, q)`
    show V c main_v21 (((cfg1.win 1).blk t).view.emb (ix2 p q)) = V c main_v21 (ix2 (⟨t.val * 5000 + p.val, hr⟩ : Fin 50000) q)
    have hh : ((cfg1.win 1).blk t).view.emb (ix2 p q) = ix2 (⟨t.val * 5000 + p.val, hr⟩ : Fin 50000) q := by
      funext a; apply Fin.ext
      match a with
      | ⟨0, _⟩ => show win1_1.index t (0 : Fin 2) * 5000 + 1 * p.val = t.val * 5000 + p.val; omega
      | ⟨1, _⟩ => show win1_1.index t (1 : Fin 2) * 64 + 1 * q.val = q.val; omega
    rw [hh]

/-- An index of the output array is in point `t`'s block iff each coordinate is in the block's range on its axis. -/
theorem mem_blk1 (t : Fin cfg1.N) (i : S50000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v45).slice (win1_8.rect t)).set ↔ _
  rw [View.set_slice_whole, Rect.mem_set_unit]
  exact Iff.rfl

/-- Every row of the output is in the block of the point `row / 5000`, and every point writes its block back. -/
theorem cover1 (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, -, -, -, -, -, -, -, -, -, e80, e81⟩ := index_facts1 t
  refine ⟨t, flush1_8 t, ?_⟩
  rw [mem_blk1]
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 64 ≤ (i 1).val ∧ (i 1).val < win1_8.index t (1 : Fin 2) * 64 + 64
    omega

/-- After the second launch the output array is the network's output on the whole arrays. -/
theorem final1 (c : Dev nD) :
    (dat1 V c).arrAt 8 cfg1.N
      = outputOf (A := 50000) (V c main_arg5) (biasRow (V c main_v42)) (V c main_arg7) (biasRow (V c main_v43))
          (V c main_arg9) (biasRow (V c main_v44)) (V c main_v41) (V c main_v21) :=
  (dat1 V c).arrAt_eq_of_cover 8 _ (fun t _ => flushed1_eq V c t) cover1

end Cert.KernelIdeal.Blocks

end
-- ==== Proof.KernelHost.lean ====
/-
  The host operations around the two kernel launches, read as functions of the arguments.

  Before the first launch the host gathers the source nodes' features along the edges, adds them into one bucket per
  (time step, destination node), and lays the buckets out as one row of `8 · 64` aggregated features per node; it
  also views the first bias vector as one row. Before the second launch it does the same with the first launch's
  result in place of the input features, and views the three remaining bias vectors as rows. The chain of gather,
  scatter-add and re-layout is exactly the reference's own aggregation, so it is named by the reference's stage
  function and never opened: both programs apply the same function to their features. No host operation and no launch
  writes an argument, so wherever an argument is read it holds what the program was launched with.
-/
import proofs.«117241_j78606491451780_1_alg».proof.Proof.Gen.KernelIdeal.Frame
import proofs.«117241_j78606491451780_1_alg».proof.Proof.Gen.ReferenceIdeal.Read
import proofs.«117241_j78606491451780_1_alg».proof.Proof.Layers

set_option maxRecDepth 16384

noncomputable section
namespace Cert.KernelIdeal.HostSide
open Cert.KernelIdeal Cert.KernelIdeal.Gen Cert.TemporalGnn Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Before the first launch -/

set_option maxHeartbeats 4000000 in
/-- The first launch's aggregated rows are the aggregation of the input features along the edges. -/
theorem entry0_cat (c : Dev nD) :
    V1 m ρ c main_v19 = Cert.ReferenceIdeal.Read.val_main_v19 (F := Ideal) (m ((c : Thread nD τ).loc main_arg0))
      (m ((c : Thread nD τ).loc main_arg1)) (m ((c : Thread nD τ).loc main_arg2)) := by
  show StableHlo.after hostOps0 (W0 m ρ c) (Proc.devRef .tc main_v19) = _
  dsimp only [hostOps0]
  after_results_simp
  rfl

set_option maxHeartbeats 4000000 in
/-- The first launch's bias row is the first bias vector viewed as one row. -/
theorem entry0_bias (c : Dev nD) :
    V1 m ρ c main_v20 = shapeCast S1x64 (m ((c : Thread nD τ).loc main_arg4)) shapeCasts_S64_S1x64 := by
  show StableHlo.after hostOps0 (W0 m ρ c) (Proc.devRef .tc main_v20) = _
  dsimp only [hostOps0]
  after_results_simp
  rfl

set_option maxHeartbeats 4000000 in
/-- Argument 1 is not written before the first launch. -/
theorem entry0_arg1 (c : Dev nD) : V1 m ρ c main_arg1 = m ((c : Thread nD τ).loc main_arg1) := by
  show StableHlo.after hostOps0 (W0 m ρ c) (Proc.devRef .tc main_arg1) = _
  dsimp only [hostOps0]
  after_results_simp
  try rfl

set_option maxHeartbeats 4000000 in
/-- Argument 2 is not written before the first launch. -/
theorem entry0_arg2 (c : Dev nD) : V1 m ρ c main_arg2 = m ((c : Thread nD τ).loc main_arg2) := by
  show StableHlo.after hostOps0 (W0 m ρ c) (Proc.devRef .tc main_arg2) = _
  dsimp only [hostOps0]
  after_results_simp
  try rfl

set_option maxHeartbeats 4000000 in
/-- Argument 3 is not written before the first launch. -/
theorem entry0_arg3 (c : Dev nD) : V1 m ρ c main_arg3 = m ((c : Thread nD τ).loc main_arg3) := by
  show StableHlo.after hostOps0 (W0 m ρ c) (Proc.devRef .tc main_arg3) = _
  dsimp only [hostOps0]
  after_results_simp
  try rfl

set_option maxHeartbeats 4000000 in
/-- Argument 5 is not written before the first launch. -/
theorem entry0_arg5 (c : Dev nD) : V1 m ρ c main_arg5 = m ((c : Thread nD τ).loc main_arg5) := by
  show StableHlo.after hostOps0 (W0 m ρ c) (Proc.devRef .tc main_arg5) = _
  dsimp only [hostOps0]
  after_results_simp
  try rfl

set_option maxHeartbeats 4000000 in
/-- Argument 6 is not written before the first launch. -/
theorem entry0_arg6 (c : Dev nD) : V1 m ρ c main_arg6 = m ((c : Thread nD τ).loc main_arg6) := by
  show StableHlo.after hostOps0 (W0 m ρ c) (Proc.devRef .tc main_arg6) = _
  dsimp only [hostOps0]
  after_results_simp
  try rfl

set_option maxHeartbeats 4000000 in
/-- Argument 7 is not written before the first launch. -/
theorem entry0_arg7 (c : Dev nD) : V1 m ρ c main_arg7 = m ((c : Thread nD τ).loc main_arg7) := by
  show StableHlo.after hostOps0 (W0 m ρ c) (Proc.devRef .tc main_arg7) = _
  dsimp only [hostOps0]
  after_results_simp
  try rfl

set_option maxHeartbeats 4000000 in
/-- Argument 8 is not written before the first launch. -/
theorem entry0_arg8 (c : Dev nD) : V1 m ρ c main_arg8 = m ((c : Thread nD τ).loc main_arg8) := by
  show StableHlo.after hostOps0 (W0 m ρ c) (Proc.devRef .tc main_arg8) = _
  dsimp only [hostOps0]
  after_results_simp
  try rfl

set_option maxHeartbeats 4000000 in
/-- Argument 9 is not written before the first launch. -/
theorem entry0_arg9 (c : Dev nD) : V1 m ρ c main_arg9 = m ((c : Thread nD τ).loc main_arg9) := by
  show StableHlo.after hostOps0 (W0 m ρ c) (Proc.devRef .tc main_arg9) = _
  dsimp only [hostOps0]
  after_results_simp
  try rfl

set_option maxHeartbeats 4000000 in
/-- Argument 10 is not written before the first launch. -/
theorem entry0_arg10 (c : Dev nD) : V1 m ρ c main_arg10 = m ((c : Thread nD τ).loc main_arg10) := by
  show StableHlo.after hostOps0 (W0 m ρ c) (Proc.devRef .tc main_arg10) = _
  dsimp only [hostOps0]
  after_results_simp
  try rfl

/-! ## Between the launches -/

/-- Argument 1 is not written by the first launch. -/
theorem mid_arg1 (c : Dev nD) : W2 m ρ c (Proc.devRef .tc main_arg1) = m ((c : Thread nD τ).loc main_arg1) :=
  (W2_of_ne m ρ c main_arg1 (by decide)).trans (entry0_arg1 m ρ c)

/-- Argument 2 is not written by the first launch. -/
theorem mid_arg2 (c : Dev nD) : W2 m ρ c (Proc.devRef .tc main_arg2) = m ((c : Thread nD τ).loc main_arg2) :=
  (W2_of_ne m ρ c main_arg2 (by decide)).trans (entry0_arg2 m ρ c)

/-- Argument 5 is not written by the first launch. -/
theorem mid_arg5 (c : Dev nD) : W2 m ρ c (Proc.devRef .tc main_arg5) = m ((c : Thread nD τ).loc main_arg5) :=
  (W2_of_ne m ρ c main_arg5 (by decide)).trans (entry0_arg5 m ρ c)

/-- Argument 6 is not written by the first launch. -/
theorem mid_arg6 (c : Dev nD) : W2 m ρ c (Proc.devRef .tc main_arg6) = m ((c : Thread nD τ).loc main_arg6) :=
  (W2_of_ne m ρ c main_arg6 (by decide)).trans (entry0_arg6 m ρ c)

/-- Argument 7 is not written by the first launch. -/
theorem mid_arg7 (c : Dev nD) : W2 m ρ c (Proc.devRef .tc main_arg7) = m ((c : Thread nD τ).loc main_arg7) :=
  (W2_of_ne m ρ c main_arg7 (by decide)).trans (entry0_arg7 m ρ c)

/-- Argument 8 is not written by the first launch. -/
theorem mid_arg8 (c : Dev nD) : W2 m ρ c (Proc.devRef .tc main_arg8) = m ((c : Thread nD τ).loc main_arg8) :=
  (W2_of_ne m ρ c main_arg8 (by decide)).trans (entry0_arg8 m ρ c)

/-- Argument 9 is not written by the first launch. -/
theorem mid_arg9 (c : Dev nD) : W2 m ρ c (Proc.devRef .tc main_arg9) = m ((c : Thread nD τ).loc main_arg9) :=
  (W2_of_ne m ρ c main_arg9 (by decide)).trans (entry0_arg9 m ρ c)

/-- Argument 10 is not written by the first launch. -/
theorem mid_arg10 (c : Dev nD) : W2 m ρ c (Proc.devRef .tc main_arg10) = m ((c : Thread nD τ).loc main_arg10) :=
  (W2_of_ne m ρ c main_arg10 (by decide)).trans (entry0_arg10 m ρ c)

/-- After the first launch its result array holds what the launch's write-backs leave. -/
theorem mid_hidden (c : Dev nD) : W2 m ρ c (Proc.devRef .tc main_v21) = (dat0 (V1 m ρ) c).arrAt 3 cfg0.N :=
  W2_arr m ρ c 3

set_option maxHeartbeats 4000000 in
/-- The second launch's aggregated rows are the aggregation of the first launch's result along the same edges. -/
theorem entry1_cat (c : Dev nD) :
    V3 m ρ c main_v41 = Cert.ReferenceIdeal.Read.val_main_v19 (F := Ideal) (W2 m ρ c (Proc.devRef .tc main_v21))
      (W2 m ρ c (Proc.devRef .tc main_arg1)) (W2 m ρ c (Proc.devRef .tc main_arg2)) := by
  show StableHlo.after hostOps1 (W2 m ρ c) (Proc.devRef .tc main_v41) = _
  dsimp only [hostOps1]
  after_results_simp
  rfl

set_option maxHeartbeats 4000000 in
/-- The second launch reads the first launch's result as the first launch left it. -/
theorem entry1_hidden (c : Dev nD) : V3 m ρ c main_v21 = W2 m ρ c (Proc.devRef .tc main_v21) := by
  show StableHlo.after hostOps1 (W2 m ρ c) (Proc.devRef .tc main_v21) = _
  dsimp only [hostOps1]
  after_results_simp
  try rfl

set_option maxHeartbeats 4000000 in
/-- A bias row of the second launch is its bias vector viewed as one row. -/
theorem entry1_v42 (c : Dev nD) :
    V3 m ρ c main_v42 = shapeCast S1x64 (W2 m ρ c (Proc.devRef .tc main_arg6)) shapeCasts_S64_S1x64 := by
  show StableHlo.after hostOps1 (W2 m ρ c) (Proc.devRef .tc main_v42) = _
  dsimp only [hostOps1]
  after_results_simp
  rfl

set_option maxHeartbeats 4000000 in
/-- A bias row of the second launch is its bias vector viewed as one row. -/
theorem entry1_v43 (c : Dev nD) :
    V3 m ρ c main_v43 = shapeCast S1x128 (W2 m ρ c (Proc.devRef .tc main_arg8)) shapeCasts_S128_S1x128 := by
  show StableHlo.after hostOps1 (W2 m ρ c) (Proc.devRef .tc main_v43) = _
  dsimp only [hostOps1]
  after_results_simp
  rfl

set_option maxHeartbeats 4000000 in
/-- A bias row of the second launch is its bias vector viewed as one row. -/
theorem entry1_v44 (c : Dev nD) :
    V3 m ρ c main_v44 = shapeCast S1x64 (W2 m ρ c (Proc.devRef .tc main_arg10)) shapeCasts_S64_S1x64 := by
  show StableHlo.after hostOps1 (W2 m ρ c) (Proc.devRef .tc main_v44) = _
  dsimp only [hostOps1]
  after_results_simp
  rfl

set_option maxHeartbeats 4000000 in
/-- Argument 5 is not written between the launches. -/
theorem entry1_arg5 (c : Dev nD) : V3 m ρ c main_arg5 = m ((c : Thread nD τ).loc main_arg5) := by
  refine Eq.trans ?_ (mid_arg5 m ρ c)
  show StableHlo.after hostOps1 (W2 m ρ c) (Proc.devRef .tc main_arg5) = _
  dsimp only [hostOps1]
  after_results_simp
  try rfl

set_option maxHeartbeats 4000000 in
/-- Argument 7 is not written between the launches. -/
theorem entry1_arg7 (c : Dev nD) : V3 m ρ c main_arg7 = m ((c : Thread nD τ).loc main_arg7) := by
  refine Eq.trans ?_ (mid_arg7 m ρ c)
  show StableHlo.after hostOps1 (W2 m ρ c) (Proc.devRef .tc main_arg7) = _
  dsimp only [hostOps1]
  after_results_simp
  try rfl

set_option maxHeartbeats 4000000 in
/-- Argument 9 is not written between the launches. -/
theorem entry1_arg9 (c : Dev nD) : V3 m ρ c main_arg9 = m ((c : Thread nD τ).loc main_arg9) := by
  refine Eq.trans ?_ (mid_arg9 m ρ c)
  show StableHlo.after hostOps1 (W2 m ρ c) (Proc.devRef .tc main_arg9) = _
  dsimp only [hostOps1]
  after_results_simp
  try rfl

/-! ## A bias vector viewed as one row has the vector's entries -/

/-- The one row of a `[B]` vector cast to `[1, B]` is the vector. -/
theorem biasRow_cast {B : Nat} (b : (⟨1, ![B]⟩ : Shape).Idx → EReal) (h : (⟨1, ![B]⟩ : Shape).ShapeCasts ⟨2, ![1, B]⟩) :
    biasRow (shapeCast (⟨2, ![1, B]⟩ : Shape) b h) = biasVec b :=
  funext fun q => shapeCast_a_1a_apply b h 0 q

end Cert.KernelIdeal.HostSide

end
-- ==== Proof.KernelValue.lean ====
/-
  The idealized kernel's result as one function of the arguments.

  The second launch's write-backs leave, in the result array, the first layer's result plus the perturbation computed
  from the second aggregate (the blocks tile the array); its inputs are what the host prepared: the aggregation of
  the first launch's result, that result itself, and the weights and bias rows. The first launch's result is the first
  temporal layer of the aggregation of the input features. Substituting the one into the other gives the network's
  output as a function of the eleven arguments.
-/
import proofs.«117241_j78606491451780_1_alg».proof.Proof.KernelBlocks
import proofs.«117241_j78606491451780_1_alg».proof.Proof.KernelHost

set_option maxRecDepth 16384

noncomputable section
namespace Cert.KernelIdeal.Result
open Cert.KernelIdeal Cert.KernelIdeal.Gen Cert.KernelIdeal.Blocks Cert.KernelIdeal.HostSide Cert.TemporalGnn
open Idealize.ShloMosaic Idealize.ShloMosaic.TcCoe Idealize.SL.Sem Idealize.ShloMosaic.ValueIdx

variable (m : (ℓ : Loc nD τ sig) → Buf (Elt Ideal) ℓ) (ρ : Dev nD → PrngReg)

/-- The aggregation of node features along the edges into `8 · 64` features per node: the reference's own chain of
    gather, scatter-add and re-layout, used as one function. -/
abbrev aggregate := @Cert.ReferenceIdeal.Read.val_main_v19 Ideal _

/-- The first launch leaves the first temporal layer of the aggregated input features. -/
theorem hidden_value (c : Dev nD) :
    W2 m ρ c (Proc.devRef .tc main_v21)
      = hiddenOf (A := 50000) (m ((c : Thread nD τ).loc main_arg3)) (biasVec (m ((c : Thread nD τ).loc main_arg4))) (aggregate (m ((c : Thread nD τ).loc main_arg0)) (m ((c : Thread nD τ).loc main_arg1)) (m ((c : Thread nD τ).loc main_arg2))) := by
  rw [mid_hidden, final0, entry0_arg3, entry0_bias, biasRow_cast, entry0_cat]

/-- The program's result: the first layer's result plus the perturbation computed from the aggregation of that
    result. -/
theorem result_value (c : Dev nD) :
    W4 m ρ c (Proc.devRef .tc main_v45)
      = outputOf (A := 50000) (m ((c : Thread nD τ).loc main_arg5)) (biasVec (m ((c : Thread nD τ).loc main_arg6))) (m ((c : Thread nD τ).loc main_arg7)) (biasVec (m ((c : Thread nD τ).loc main_arg8))) (m ((c : Thread nD τ).loc main_arg9)) (biasVec (m ((c : Thread nD τ).loc main_arg10)))
          (aggregate (hiddenOf (A := 50000) (m ((c : Thread nD τ).loc main_arg3)) (biasVec (m ((c : Thread nD τ).loc main_arg4))) (aggregate (m ((c : Thread nD τ).loc main_arg0)) (m ((c : Thread nD τ).loc main_arg1)) (m ((c : Thread nD τ).loc main_arg2)))) (m ((c : Thread nD τ).loc main_arg1)) (m ((c : Thread nD τ).loc main_arg2)))
          (hiddenOf (A := 50000) (m ((c : Thread nD τ).loc main_arg3)) (biasVec (m ((c : Thread nD τ).loc main_arg4))) (aggregate (m ((c : Thread nD τ).loc main_arg0)) (m ((c : Thread nD τ).loc main_arg1)) (m ((c : Thread nD τ).loc main_arg2)))) := by
  refine (W4_arr m ρ c 8).trans ?_
  rw [final1, entry1_arg5, entry1_v42, biasRow_cast, mid_arg6, entry1_arg7, entry1_v43, biasRow_cast, mid_arg8,
    entry1_arg9, entry1_v44, biasRow_cast, mid_arg10, entry1_cat, entry1_hidden, hidden_value, mid_arg1, mid_arg2]

end Cert.KernelIdeal.Result

end
-- ==== Proof.RefValue.lean ====
/-
  The value of the reference network, as the layers of `Layers`.

  The reference aggregates the node features over the edges, applies the first temporal layer (an affine map of each
  row followed by the maximum with zero, which the program takes twice), aggregates the result again, and from the
  second aggregate computes the perturbation: three affine layers in a chain, the first two followed by the maximum
  with zero. Its output is the first layer's result plus the perturbation.

  The aggregation is kept opaque here: it is a function of the feature array and of the two edge arrays, the same
  function each time the program spells it out. Everything after it is read entry by entry: a host product plus a
  broadcast bias is `dense` of a row, and the zero array is zero at every entry.
-/
import proofs.«117241_j78606491451780_1_alg».proof.Proof.Gen.ReferenceIdeal.Read
import proofs.«117241_j78606491451780_1_alg».proof.Proof.Layers

noncomputable section
open scoped BigOperators
namespace Cert.ReferenceIdeal.RefValue
open Cert.ReferenceIdeal Cert.ReferenceIdeal.Read Cert.TemporalGnn Idealize.ShloMosaic Idealize.ShloMosaic.ValueIdx

/-! ## The aggregation is one function -/

/-- The aggregate the output's first summand is computed from is the aggregate of the node features. -/
theorem agg_again (x0 : (⟨S50000x64, .f32⟩ : BufTy).Contents (Elt Ideal)) (x1 : (⟨S2x800000, .i32⟩ : BufTy).Contents (Elt Ideal)) (x2 : (⟨S800000, .i32⟩ : BufTy).Contents (Elt Ideal)) :
    val_main_v79 (F := Ideal) x0 x1 x2 = val_main_v19 (F := Ideal) x0 x1 x2 := rfl

/-- The second aggregate is the same aggregation applied to the first layer's result. -/
theorem agg_second (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) :
    val_main_v45 (F := Ideal) x0 x1 x2 x3 x4
      = val_main_v19 (F := Ideal) (val_main_v25 (F := Ideal) x0 x1 x2 x3 x4) x1 x2 := rfl

/-! ## The zero array and an affine layer, as functions of the entry -/

/-- The scalar zero broadcast to any shape is zero at every entry. -/
theorem zero_splat_apply {s : Shape} (h : S_.BroadcastsInDim s (![] : Fin 0 → Fin s.rank)) (i : s.Idx) :
    broadcastInDim s ![] h (constant (F := Ideal) S_ .f32 0x00000000#32) i = 0 := by
  refine (broadcastInDim_apply _ h _ i (fun a => a.elim0) (fun a => a.elim0)).trans ?_
  exact Ideal.ofBits_zero_f32

/-- A host product plus the bias vector broadcast over the rows is, at every entry, `dense` of the entry's row. -/
theorem host_affine_fun {A K B : Nat} (d : PlainDot.Dot2 A K B) (hd : PlainDot.IsPlain d)
    (x : FVec Ideal (⟨2, ![A, K]⟩ : Shape) .f32) (w : FVec Ideal (⟨2, ![K, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf (Host.dotGeneral (F := Ideal) d none x w)
        (broadcastInDim (⟨2, ![A, B]⟩ : Shape) ![0, 1] h2 (broadcastInDim (⟨2, ![1, B]⟩ : Shape) ![1] h1 b))
      = fun i => dense w (biasVec b) (row x (i 0)) (i 1) := by
  funext i
  obtain ⟨p, q, rfl⟩ : ∃ (p : Fin A) (q : Fin B), i = ix2 p q := ⟨i 0, i 1, eq_ix2 i⟩
  exact host_affine_apply d hd x w b h1 h2 p q

/-! ## The first temporal layer -/

/-- Before the maximum, the first layer is `cat · W + b` with `cat` the aggregate of the node features. -/
theorem first_affine (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) :
    val_main_v23 (F := Ideal) x0 x1 x2 x3 x4
      = fun i => dense x3 (biasVec x4) (row (val_main_v19 (F := Ideal) x0 x1 x2) (i 0)) (i 1) := by
  unfold val_main_v23 val_main_v20 val_main_v22 val_main_v21
  exact host_affine_fun _ ⟨rfl, rfl, rfl, rfl, rfl, rfl⟩ _ _ _ _ _

/-- The first layer with one maximum is `hiddenOf`. -/
theorem first_relu (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) :
    val_main_v24 (F := Ideal) x0 x1 x2 x3 x4 = hiddenOf x3 (biasVec x4) (val_main_v19 (F := Ideal) x0 x1 x2) := by
  funext i
  unfold val_main_v24
  rw [maximumf_apply, first_affine]
  unfold val_main_call0_v0 val_main_call0_cst
  rw [zero_splat_apply]
  rfl

/-- Taking the maximum with zero a second time changes nothing: the first layer's result is `hiddenOf`. -/
theorem first_layer (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) :
    val_main_v25 (F := Ideal) x0 x1 x2 x3 x4 = hiddenOf x3 (biasVec x4) (val_main_v19 (F := Ideal) x0 x1 x2) := by
  funext i
  unfold val_main_v25
  rw [maximumf_apply, first_relu]
  unfold val_main_call1_v0 val_main_call1_cst
  rw [zero_splat_apply]
  exact max_zero_idem _

/-- The same layer where the program computes it again for the output's first summand. -/
theorem first_layer_again (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) :
    val_main_v84 (F := Ideal) x0 x1 x2 x3 x4 = hiddenOf x3 (biasVec x4) (val_main_v19 (F := Ideal) x0 x1 x2) := by
  funext i
  unfold val_main_v84
  rw [maximumf_apply]
  unfold val_main_call4_v0 val_main_call4_cst
  rw [zero_splat_apply]
  unfold val_main_v83 val_main_v80 val_main_v82 val_main_v81
  rw [host_affine_fun _ ⟨rfl, rfl, rfl, rfl, rfl, rfl⟩, agg_again]
  rfl

/-! ## The perturbation's three layers -/

/-- The second temporal layer: `max (cat2 · W2 + b2) 0` with `cat2` the aggregate of the first layer's result. -/
theorem second_layer (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) (x5 : (⟨S512x64, .f32⟩ : BufTy).Contents (Elt Ideal)) (x6 : (⟨S64, .f32⟩ : BufTy).Contents (Elt Ideal)) :
    val_main_v50 (F := Ideal) x0 x1 x2 x3 x4 x5 x6
      = fun i => max (dense x5 (biasVec x6) (row (val_main_v45 (F := Ideal) x0 x1 x2 x3 x4) (i 0)) (i 1)) 0 := by
  funext i
  unfold val_main_v50
  rw [maximumf_apply]
  unfold val_main_call2_v0 val_main_call2_cst
  rw [zero_splat_apply]
  unfold val_main_v49 val_main_v46 val_main_v48 val_main_v47
  rw [host_affine_fun _ ⟨rfl, rfl, rfl, rfl, rfl, rfl⟩]

/-- The perturbation's hidden layer: `max (h2 · Wa1 + ba1) 0`. -/
theorem third_layer (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) (x5 : (⟨S512x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) :
    val_main_v55 (F := Ideal) x0 x1 x2 x3 x4 x5 x6 x7 x8
      = fun i => max (dense x7 (biasVec x8) (row (val_main_v50 (F := Ideal) x0 x1 x2 x3 x4 x5 x6) (i 0)) (i 1)) 0 := by
  funext i
  unfold val_main_v55
  rw [maximumf_apply]
  unfold val_main_call3_v0 val_main_call3_cst
  rw [zero_splat_apply]
  unfold val_main_v54 val_main_v51 val_main_v53 val_main_v52
  rw [host_affine_fun _ ⟨rfl, rfl, rfl, rfl, rfl, rfl⟩]

/-- The perturbation's last layer is affine, with no maximum. -/
theorem fourth_layer (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) (x5 : (⟨S512x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) :
    val_main_v59 (F := Ideal) x0 x1 x2 x3 x4 x5 x6 x7 x8 x9 x10
      = fun i => dense x9 (biasVec x10) (row (val_main_v55 (F := Ideal) x0 x1 x2 x3 x4 x5 x6 x7 x8) (i 0)) (i 1) := by
  unfold val_main_v59 val_main_v56 val_main_v58 val_main_v57
  exact host_affine_fun _ ⟨rfl, rfl, rfl, rfl, rfl, rfl⟩ _ _ _ _ _

/-! ## The output -/

/-- The reference's result is the first layer's result plus the perturbation of the second aggregate's rows, the second
    aggregate being the aggregation of the first layer's result. -/
theorem result_eq (x0 : (⟨S50000x64, .f32⟩ : BufTy).Contents (Elt Ideal)) (x1 : (⟨S2x800000, .i32⟩ : BufTy).Contents (Elt Ideal)) (x2 : (⟨S800000, .i32⟩ : BufTy).Contents (Elt Ideal)) (x3 : (⟨S512x64, .f32⟩ : BufTy).Contents (Elt Ideal)) (x4 : (⟨S64, .f32⟩ : BufTy).Contents (Elt Ideal)) (x5 : (⟨S512x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) :
    val_main_v85 (F := Ideal) x0 x1 x2 x3 x4 x5 x6 x7 x8 x9 x10
      = outputOf x5 (biasVec x6) x7 (biasVec x8) x9 (biasVec x10)
          (val_main_v19 (F := Ideal) (hiddenOf x3 (biasVec x4) (val_main_v19 (F := Ideal) x0 x1 x2)) x1 x2)
          (hiddenOf x3 (biasVec x4) (val_main_v19 (F := Ideal) x0 x1 x2)) := by
  funext i
  unfold val_main_v85
  rw [addf_apply, first_layer_again, fourth_layer, third_layer, second_layer, agg_second, first_layer]
  rfl

end Cert.ReferenceIdeal.RefValue

end
-- ==== Proof.lean ====
/-
  A temporal graph network, row-tiled over the nodes in two kernel launches, against its plain reference.

  Both programs aggregate node features along the edges into one row of `8 · 64` features per node (a gather, a
  scatter-add into (time step, node) buckets, a re-layout), on the host and by the same operations. The reference then
  computes `h1 = max (max (agg x · Wt1 + bt1) 0) 0`, the perturbation `adv` — three dense layers on `agg h1`, the first
  two followed by a maximum with zero — and returns `max (agg x · Wt1 + bt1) 0 + adv`. The kernel computes
  `h1 = max (agg x · Wt1 + bt1) 0` in a first launch, 5000 rows at a point, and `h1 + adv` in a second launch from
  `agg h1`, again 5000 rows at a point.

  On the extended reals the operands' rounding to a narrower format is the identity, a product into a zero
  accumulator and the host's product are the same finite sum, and every layer acts on each row separately, so a block
  of rows of a layer's result is the layer's result on the block: the ten blocks of each launch tile the result
  array with the whole-array function. The one law joining the two programs is that the maximum with zero taken twice
  is the maximum with zero; it needs no finiteness. The aggregation is never opened: both programs apply the same
  function to equal features.

  The frames of the two kernel programs are the generated ones; the reference's frame is its generated run with the
  result dropped; the idealization rewrote nothing.
-/
import proofs.«117241_j78606491451780_1_alg».proof.Defs
import proofs.«117241_j78606491451780_1_alg».proof.Proof.Gen.Kernel
import proofs.«117241_j78606491451780_1_alg».proof.Proof.Gen.Kernel.Skeleton
import proofs.«117241_j78606491451780_1_alg».proof.Proof.Gen.Kernel.Launch
import proofs.«117241_j78606491451780_1_alg».proof.Proof.Gen.Kernel.Points
import proofs.«117241_j78606491451780_1_alg».proof.Proof.Gen.Kernel.Frame
import proofs.«117241_j78606491451780_1_alg».proof.Proof.Gen.KernelIdeal
import proofs.«117241_j78606491451780_1_alg».proof.Proof.Gen.KernelIdeal.Skeleton
import proofs.«117241_j78606491451780_1_alg».proof.Proof.Gen.KernelIdeal.Launch
import proofs.«117241_j78606491451780_1_alg».proof.Proof.Gen.KernelIdeal.Points
import proofs.«117241_j78606491451780_1_alg».proof.Proof.Gen.KernelIdeal.Frame
import proofs.«117241_j78606491451780_1_alg».proof.Proof.Gen.ReferenceIdeal
import proofs.«117241_j78606491451780_1_alg».proof.Proof.Gen.ReferenceIdeal.Run
import proofs.«117241_j78606491451780_1_alg».proof.Proof.Gen.ReferenceIdeal.Read
import proofs.«117241_j78606491451780_1_alg».proof.Proof.Gen.Pre_finite_inputs
import proofs.«117241_j78606491451780_1_alg».proof.Proof.KernelRun
import proofs.«117241_j78606491451780_1_alg».proof.Proof.KernelValue
import proofs.«117241_j78606491451780_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel [Cert.Kernel.Facts] [Cert.Pre_finite_inputs.Facts] : Cert.frame_Kernel :=
  fun m ρ _ => Cert.Kernel.Gen.frame m ρ

/-- The idealized kernel program runs and keeps its arguments. -/
theorem frame_kernelIdeal [Cert.KernelIdeal.Facts] [Cert.Pre_finite_inputs.Facts] : Cert.frame_KernelIdeal :=
  fun m ρ _ => Cert.KernelIdeal.Gen.frame m ρ

/-- The idealized reference runs and keeps its arguments: its run, the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with the same array: the reference's
    composed term is the network's output function of the arguments (one relu twice being one relu), and so is what
    the kernel's two launches leave. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W4 m ρ c (Proc.devRef .tc Cert.KernelIdeal.main_v45),
    Cert.KernelIdeal.GenP.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v85_eq, Cert.ReferenceIdeal.RefValue.result_eq,
    h0, h1, h2, h3, h4, h5, h6, h7, h8, h9, h10]
  exact (Cert.KernelIdeal.Result.result_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
